-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x64x64 : Shape := ⟨4, ![32, 512, 64, 64]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x64x64 : S_.BroadcastsInDim S32x512x64x64 (![] : Fin 0 → Fin S32x512x64x64.rank)
  reducesTo_S32x512x64x64_S_d0_1_2_3 : S32x512x64x64.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x64x64 .f32) (main_arg1 : FVec F S32x512 .f32) (main_arg2 : FVec F S32 .f32) (main_arg3 : FVec F S512x32 .f32) (main_arg4 : FVec F S512 .f32) : IVec S_ 1 :=
  let main_v0 : FVec F S32x512x64x64 .f32 := Host.absf main_arg0
  let main_cst : FVec F S_ .f32 := constant S_ .f32 0x7F800000#32
  let main_v1 : FVec F S32x512x64x64 .f32 := broadcastInDim S32x512x64x64 ![] bcast_S_S32x512x64x64 main_cst
  let main_v2 : IVec S32x512x64x64 1 := cmpf .olt main_v0 main_v1
  let main_c : IVec S_ 1 := constantI S_ 1 1#1
  let main_v3 : IVec S_ 1 := (fun x v => Host.reduce IntOp.andi x v reducesTo_S32x512x64x64_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S32x512x64x64 : Shape := ⟨4, ![32, 512, 64, 64]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x512x4096 : Shape := ⟨3, ![32, 512, 4096]⟩
abbrev S8x128x4096 : Shape := ⟨3, ![8, 128, 4096]⟩
abbrev S8x128 : Shape := ⟨2, ![8, 128]⟩
abbrev S1x32 : Shape := ⟨2, ![1, 32]⟩
abbrev S1x512 : Shape := ⟨2, ![1, 512]⟩
abbrev S32x32 : Shape := ⟨2, ![32, 32]⟩
abbrev S32x512x1x1 : Shape := ⟨4, ![32, 512, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x512x4096, .f32⟩
  | .hbm, ⟨6, _⟩ => ⟨S32x512, .f32⟩
  | .hbm, ⟨7, _⟩ => ⟨S1x32, .f32⟩
  | .hbm, ⟨8, _⟩ => ⟨S1x512, .f32⟩
  | .hbm, ⟨9, _⟩ => ⟨S32x512, .f32⟩
  | .hbm, ⟨10, _⟩ => ⟨S32x512x1x1, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S32x512, .f32⟩
  | .local _ .vmem, ⟨5, _⟩ => ⟨S32x512, .f32⟩
  | .local _ .vmem, ⟨6, _⟩ => ⟨S1x32, .f32⟩
  | .local _ .vmem, ⟨7, _⟩ => ⟨S512x32, .f32⟩
  | .local _ .vmem, ⟨8, _⟩ => ⟨S1x512, .f32⟩
  | .local _ .vmem, ⟨9, _⟩ => ⟨S32x512, .f32⟩
  | _, _ => ⟨S32x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S32x512x64x64_S32x512x4096 : S32x512x64x64.ShapeCasts S32x512x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  shapeCasts_S32_S1x32 : S32.ShapeCasts S1x32
  shapeCasts_S512_S1x512 : S512.ShapeCasts S1x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S512x32_S512x32_0_0 : ∀ a, (![0, 0] : Fin 2 → Nat) a + S512x32.size a ≤ S512x32.size a
  h_S512x32 : 0 < S512x32.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S32x512_p1_0_S512x32 : S32x512.Transposes [1, 0] S512x32
  broadcasts_S1x32_S32x32 : S1x32.Broadcasts S32x32
  transposes_S512x32_p1_0_S32x512 : S512x32.Transposes [1, 0] S32x512
  broadcasts_S1x512_S32x512 : S1x512.Broadcasts S32x512
  shapeCasts_S32x512_S32x512x1x1 : S32x512.ShapeCasts S32x512x1x1
  dot_S32x512_S512x32_S32x32_1_0_0_1_n_n_wf : DotDims.WF S32x512 S512x32 S32x32 [1] [0] [0] [1] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S32x512x4096.size a
  hwx0_0 : ∀ i : grid0.Coords, EltTy.bits .f32 = 32 ∨ (Rect.block (s := S32x512x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x512.size a ≤ S32x512.size a
  hwx1_0 : ∀ i : grid1.Coords, EltTy.bits .f32 = 32 ∨ (Rect.block (s := S32x512) S32x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S32x512.size a
  hwx1_1 : ∀ i : grid1.Coords, EltTy.bits .f32 = 32 ∨ (Rect.block (s := S32x512) S32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S512x32.size a
  hwx1_3 : ∀ i : grid1.Coords, EltTy.bits .f32 = 32 ∨ (Rect.block (s := S512x32) S512x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x512.size a ≤ S32x512.size a
  hwx1_5 : ∀ i : grid1.Coords, EltTy.bits .f32 = 32 ∨ (Rect.block (s := S32x512) S32x512.size (cc1_transform_5 i) (hinb1_5 i)).WholeWords (EltTy.packing .f32)

variable [Facts₀]

def dot_S32x512_S512x32_S32x32_1_0_0_1_n_n : DotDims S32x512 S512x32 S32x32 where
  lhsContracting := [1]
  rhsContracting := [0]
  lhsNonContracting := [0]
  rhsNonContracting := [1]
  lhsBatch := []
  rhsBatch := []
  wf := dot_S32x512_S512x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S32x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S32x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S32x512.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x512x64x64 : Shape := ⟨4, ![32, 512, 64, 64]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩
abbrev S32x32 : Shape := ⟨2, ![32, 32]⟩
abbrev S1x32 : Shape := ⟨2, ![1, 32]⟩
abbrev S1x512 : Shape := ⟨2, ![1, 512]⟩
abbrev S32x512x1x1 : Shape := ⟨4, ![32, 512, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x512x64x64, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S_, .f32⟩
  | .hbm, ⟨6, _⟩ => ⟨S32x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S32x32, .f32⟩
  | .hbm, ⟨11, _⟩ => ⟨S1x32, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x512, .f32⟩
  | .hbm, ⟨18, _⟩ => ⟨S1x512, .f32⟩
  | .hbm, ⟨19, _⟩ => ⟨S32x512, .f32⟩
  | .hbm, ⟨20, _⟩ => ⟨S32x512, .f32⟩
  | .hbm, ⟨21, _⟩ => ⟨S32x512, .f32⟩
  | .hbm, ⟨22, _⟩ => ⟨S32x512, .f32⟩
  | .hbm, ⟨23, _⟩ => ⟨S_, .f32⟩
  | .hbm, ⟨24, _⟩ => ⟨S32x512, .f32⟩
  | .hbm, ⟨25, _⟩ => ⟨S32x512, .f32⟩
  | .hbm, ⟨26, _⟩ => ⟨S_, .f32⟩
  | .hbm, ⟨27, _⟩ => ⟨S32x512, .f32⟩
  | .hbm, ⟨28, _⟩ => ⟨S32x512, .f32⟩
  | .hbm, ⟨29, _⟩ => ⟨S32x512x1x1, .f32⟩
  | _, _ => ⟨S32x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  reducesTo_S32x512x64x64_S32x512_d2_3 : S32x512x64x64.ReducesTo [2, 3] S32x512
  h_S_ : 0 < S_.numel
  bcast_S_S32x512 : S_.BroadcastsInDim S32x512 (![] : Fin 0 → Fin S32x512.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x512x1x1_0_1 : S32x512.BroadcastsInDim S32x512x1x1 (![0, 1] : Fin 2 → Fin S32x512x1x1.rank)
  dot_S32x512_S32x512_S32x32_1_1_0_0_n_n_wf : DotDims.WF S32x512 S32x512 S32x32 [1] [1] [0] [0] [] []
  dot_S32x32_S512x32_S32x512_1_1_0_0_n_n_wf : DotDims.WF S32x32 S512x32 S32x512 [1] [1] [0] [0] [] []

variable [Facts₀]

def dot_S32x512_S32x512_S32x32_1_1_0_0_n_n : DotDims S32x512 S32x512 S32x32 where
  lhsContracting := [1]
  rhsContracting := [1]
  lhsNonContracting := [0]
  rhsNonContracting := [0]
  lhsBatch := []
  rhsBatch := []
  wf := dot_S32x512_S32x512_S32x32_1_1_0_0_n_n_wf
def dot_S32x32_S512x32_S32x512_1_1_0_0_n_n : DotDims S32x32 S512x32 S32x512 where
  lhsContracting := [1]
  rhsContracting := [1]
  lhsNonContracting := [0]
  rhsNonContracting := [0]
  lhsBatch := []
  rhsBatch := []
  wf := dot_S32x32_S512x32_S32x512_1_1_0_0_n_n_wf

class Facts : Prop extends Facts₀ where

variable [Facts]
-- ==== Proof.KernelRun.lean ====
/-
  The run of the pooling-and-gate program with its result named.

  The program is five segments: a re-laying of the pixels, the pooling region, a re-laying of the two biases as rows,
  the gate region, and a re-laying of the gates as a [32, 512, 1, 1] array. Every weakly fair execution from a memory
  with zero counters runs the five segments in order, and at each boundary the unscoped buffers hold the contents the
  fold through the program gives them: a host stretch applies its operations, a region replaces its windows' arrays by
  what its write-backs leave. So the run ends with every unscoped buffer at the last boundary's contents; read at the
  result buffer that is the program's value, and read at an argument it is the argument as launched.
-/
import proofs.«151572_j43310450213261_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last
    boundary's contents, and each argument array ends as launched. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.Spec.lean ====
/-
  Global average pooling followed by a two-layer gate, entry by entry, on the extended reals.

  For an input `x` of 32 images with 512 channels of 64 × 64 pixels:
    • `pool x n ch` is the mean of channel `ch` of image `n`: the sum of its 4096 pixels times 1/4096;
      `poolLanes` is the same mean when the 64 × 64 pixels are laid out as one row of 4096;
    • `hid p w1 b1 n j` is `max (⟨p n, w1 j⟩ + b1 j) 0`, the first layer's 32 rectified features;
    • `gate h w2 b2 n o` is the logistic function of `⟨h n, w2 o⟩ + b2 o`, the 512 gates.
  Every array is given by its coordinates, so that an array and a re-laid copy of it (a bias as a row, the pixels
  as one row) are compared coordinate by coordinate.
-/
import Idealize.ShloMosaic.PureOps.Ideal
import Idealize.ShloMosaic.Lib.ValueIdx

noncomputable section

open scoped BigOperators

namespace Cert.PoolGate

open Idealize.ShloMosaic

/-- The mean over the 64 × 64 pixels of one channel of one image. -/
def pool (x : Fin 32 → Fin 512 → Fin 64 → Fin 64 → EReal) (n : Fin 32) (ch : Fin 512) : EReal :=
  (∑ h : Fin 64, ∑ w : Fin 64, x n ch h w) * ((1 / 4096 : ℝ) : EReal)

/-- The same mean over the pixels laid out as one row of 4096. -/
def poolLanes (x : Fin 32 → Fin 512 → Fin 4096 → EReal) (n : Fin 32) (ch : Fin 512) : EReal :=
  (∑ k : Fin 4096, x n ch k) * ((1 / 4096 : ℝ) : EReal)

/-- The first layer: the inner product of the pooled row with row `j` of the weights, plus the bias, rectified. -/
def hid (p : Fin 32 → Fin 512 → EReal) (w1 : Fin 32 → Fin 512 → EReal) (b1 : Fin 32 → EReal) (n j : Fin 32) : EReal :=
  max ((∑ k : Fin 512, p n k * w1 j k) + b1 j) 0

/-- The second layer: the inner product of the features with row `o` of the weights, plus the bias, through the
    logistic function. -/
def gate (h : Fin 32 → Fin 32 → EReal) (w2 : Fin 512 → Fin 32 → EReal) (b2 : Fin 512 → EReal) (n : Fin 32) (o : Fin 512) : EReal :=
  Ideal.logistic ((∑ k : Fin 32, h n k * w2 o k) + b2 o)

end Cert.PoolGate

end
-- ==== Proof.Relayout.lean ====
/-
  Re-laid copies of an array read entry by entry, and the mean over a row of 4096 lanes as the mean over 64 × 64 pixels.

  A reshape keeps the row-major position of every entry. So the [32, 512, 64, 64] input viewed as [32, 512, 4096] has,
  at lane `k` of channel `ch` of image `n`, the pixel `(k / 64, k % 64)` of that channel; and a [32, 512] array viewed
  as [32, 512, 1, 1] has at `(n, o, 0, 0)` its entry `(n, o)`. Lanes and pixels correspond one to one under
  `k ↦ (k / 64, k % 64)`, so a sum over the 4096 lanes is the double sum over the pixels; addition of extended reals
  is commutative and associative, which is all the re-indexing uses.
-/
import proofs.«151572_j43310450213261_2_alg».proof.Proof.Spec
import Idealize.ShloMosaic.Lib.Pipeline.Value
import Idealize.ShloMosaic.Lib.ValueIdx

noncomputable section

open scoped BigOperators

namespace Cert.PoolGate

open Idealize.ShloMosaic Idealize.ShloMosaic.ValueIdx

/-- The pixel row of a lane and its pixel column. -/
def laneRow (k : Fin 4096) : Fin 64 := ⟨k.val / 64, by have := k.isLt; omega⟩
def laneCol (k : Fin 4096) : Fin 64 := ⟨k.val % 64, Nat.mod_lt _ (by decide)⟩

/-- Lanes and pixels correspond one to one. -/
def laneEquiv : Fin 4096 ≃ Fin 64 × Fin 64 where
  toFun k := (laneRow k, laneCol k)
  invFun p := ⟨p.1.val * 64 + p.2.val, by have := p.1.isLt; have := p.2.isLt; omega⟩
  left_inv k := Fin.ext (by show k.val / 64 * 64 + k.val % 64 = k.val; omega)
  right_inv p := by
    have h1 := p.1.isLt; have h2 := p.2.isLt
    refine Prod.ext (Fin.ext ?_) (Fin.ext ?_)
    · show (p.1.val * 64 + p.2.val) / 64 = p.1.val; omega
    · show (p.1.val * 64 + p.2.val) % 64 = p.2.val; omega

/-- A sum over the 4096 lanes is the double sum over the 64 × 64 pixels. -/
theorem sum_lanes {M : Type*} [AddCommMonoid M] (f : Fin 64 → Fin 64 → M) :
    (∑ k : Fin 4096, f (laneRow k) (laneCol k)) = ∑ h : Fin 64, ∑ w : Fin 64, f h w := by
  rw [← Fintype.sum_prod_type']
  exact Fintype.sum_equiv laneEquiv _ _ fun _ => rfl

/-- The mean over the lanes of the re-laid pixels is the mean over the pixels. -/
theorem poolLanes_lanes (x : Fin 32 → Fin 512 → Fin 64 → Fin 64 → EReal) :
    poolLanes (fun n ch k => x n ch (laneRow k) (laneCol k)) = pool x := by
  funext n ch
  unfold poolLanes pool
  rw [sum_lanes (fun h w => x n ch h w)]

/-- The input viewed with its pixels as one row: lane `k` is pixel `(k / 64, k % 64)`. -/
theorem cast_lanes {α : Type} (x : (⟨4, ![32, 512, 64, 64]⟩ : Shape).Idx → α)
    (h : (⟨4, ![32, 512, 64, 64]⟩ : Shape).ShapeCasts ⟨3, ![32, 512, 4096]⟩) (n : Fin 32) (ch : Fin 512) (k : Fin 4096) :
    shapeCast ⟨3, ![32, 512, 4096]⟩ x h (ix3 n ch k) = x (ix4 n ch (laneRow k) (laneCol k)) :=
  shapeCast_apply x h _ _ (by
    rw [Shape.rowMajor_val_four, Shape.rowMajor_val_three]
    show ((n.val * 512 + ch.val) * 64 + k.val / 64) * 64 + k.val % 64 = (n.val * 512 + ch.val) * 4096 + k.val
    omega)

/-- A [32, 512] array viewed as [32, 512, 1, 1]: the two unit coordinates change nothing. -/
theorem cast_unit_tail {α : Type} (y : (⟨2, ![32, 512]⟩ : Shape).Idx → α)
    (h : (⟨2, ![32, 512]⟩ : Shape).ShapeCasts ⟨4, ![32, 512, 1, 1]⟩) (n : Fin 32) (o : Fin 512) (u v : Fin 1) :
    shapeCast ⟨4, ![32, 512, 1, 1]⟩ y h (ix4 n o u v) = y (ix2 n o) :=
  shapeCast_apply y h _ _ (by
    have hu : u.val = 0 := by omega
    have hv : v.val = 0 := by omega
    rw [Shape.rowMajor_val_two, Shape.rowMajor_val_four]
    show n.val * 512 + o.val = ((n.val * 512 + o.val) * 1 + u.val) * 1 + v.val
    omega)

end Cert.PoolGate

end
-- ==== Proof.Fold.lean ====
/-
  The program's result, read back through its five segments.

  The result buffer is the gate region's output re-laid as [32, 512, 1, 1]. The gate region's output is the gate of
  its five operands as that region finds them: the pooled means, which the pooling region left and the two bias
  re-layings in between did not touch; the two weight arrays, untouched since the launch; and the two biases re-laid as
  rows. The pooled means are the lane means of the input re-laid with its pixels as one row, which the first segment
  wrote and nothing after it changes before the pooling region reads it. Unfolding the re-layings coordinate by
  coordinate, the result at `(n, o, 0, 0)` is the gate at `(n, o)` of the rectified features of the pixel means.
-/
import proofs.«151572_j43310450213261_2_alg».proof.Proof.Gen.KernelIdeal.Frame
import proofs.«151572_j43310450213261_2_alg».proof.Proof.Relayout
import Idealize.ShloMosaic.Lib.ValueLayout
import Idealize.ShloMosaic.Lib.StableHlo.Run

set_option maxRecDepth 16384

noncomputable section

open scoped BigOperators

namespace Cert.KernelIdeal.Fold

open Cert.KernelIdeal Cert.KernelIdeal.Gen Cert.PoolGate
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The host stretches, one buffer at a time -/

/-- Entering the pooling region, `main_v0` is the input with its pixels as one row. -/
theorem W1_v0 (c : Dev nD) : (W1 m ρ c (Proc.devRef .tc main_v0) : S32x512x4096.Idx → EReal)
    = shapeCast S32x512x4096 (m ((c : Thread nD τ).loc main_arg0)) shapeCasts_S32x512x64x64_S32x512x4096 := by
  show StableHlo.after hostOps0 (W0 m ρ c) (Proc.devRef .tc main_v0) = _
  after_results
  rfl

/-- The first stretch writes `main_v0` only, and the pooling region writes `main_v1` only: leaving the pooling
    region, each of the four other arguments is as launched. -/
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
theorem W2_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results
theorem W2_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results

/-- Entering the gate region: the pooled means are what the pooling region left, the weights are as launched, and
    each bias is the launched bias re-laid as a row. -/
theorem W3_v1 (c : Dev nD) : W3 m ρ c (Proc.devRef .tc main_v1) = (dat0 (V1 m ρ) c).arrAt 1 cfg0.N := by
  show StableHlo.after hostOps1 (W2 m ρ c) (Proc.devRef .tc main_v1) = _
  after_results
  exact W2_arr m ρ c 1
theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results
  exact W2_arg3 m ρ c
theorem W3_v2 (c : Dev nD) : (W3 m ρ c (Proc.devRef .tc main_v2) : S1x32.Idx → EReal)
    = shapeCast S1x32 (m ((c : Thread nD τ).loc main_arg2)) shapeCasts_S32_S1x32 := by
  show StableHlo.after hostOps1 (W2 m ρ c) (Proc.devRef .tc main_v2) = _
  after_results
  rw [W2_arg2]
  rfl
theorem W3_v3 (c : Dev nD) : (W3 m ρ c (Proc.devRef .tc main_v3) : S1x512.Idx → EReal)
    = shapeCast S1x512 (m ((c : Thread nD τ).loc main_arg4)) shapeCasts_S512_S1x512 := by
  show StableHlo.after hostOps1 (W2 m ρ c) (Proc.devRef .tc main_v3) = _
  after_results
  rw [W2_arg4]
  rfl

/-- The result buffer is the gate region's output re-laid with two trailing unit axes. -/
theorem W5_v5 (c : Dev nD) : (W5 m ρ c (Proc.devRef .tc main_v5) : S32x512x1x1.Idx → EReal)
    = shapeCast S32x512x1x1 ((dat1 (V3 m ρ) c).arrAt 5 cfg1.N) shapeCasts_S32x512_S32x512x1x1 := by
  show StableHlo.after hostOps2 (W4 m ρ c) (Proc.devRef .tc main_v5) = _
  after_results
  rw [W4_arr m ρ c 5]
  rfl

/-! ## The result as one function of the launched arrays -/

/-- What the gate region reads as the pooled means is the pixel means of the launched input: the pooling region's
    lane means of the input re-laid with its pixels as one row (`hpool`), lane `k` being pixel `(k / 64, k % 64)`. -/
theorem pooled_read
    (hpool : ∀ (V : (c : Dev nD) → (b : Ref sig .tc) → Buf (Elt Ideal) ((c : Thread nD τ).loc b)) (c : Dev nD),
      (dat0 (F := Ideal) V c).arrAt 1 cfg0.N = fun i => poolLanes (fun n ch k => V c main_v0 (ix3 n ch k)) (i 0) (i 1))
    (c : Dev nD) :
    (fun (n : Fin 32) (k : Fin 512) => V3 m ρ c main_v1 (ix2 n k))
      = pool (fun n ch h w => m ((c : Thread nD τ).loc main_arg0) (ix4 n ch h w)) := by
  rw [← poolLanes_lanes]
  funext n k
  show W3 m ρ c (Proc.devRef .tc main_v1) (ix2 n k) = _
  rw [W3_v1, hpool]
  show poolLanes (fun n ch k => W1 m ρ c (Proc.devRef .tc main_v0) (ix3 n ch k)) n k = _
  rw [W1_v0]
  refine congrArg (fun f => poolLanes f n k) ?_
  funext n' ch' k'
  exact cast_lanes _ _ n' ch' k'

/-- The first bias as the gate region reads it, a row, is the launched bias. -/
theorem bias1_read (c : Dev nD) :
    (fun (j : Fin 32) => V3 m ρ c main_v2 (ix2 (0 : Fin 1) j)) = fun j => m ((c : Thread nD τ).loc main_arg2) (ix1 j) := by
  funext j
  show W3 m ρ c (Proc.devRef .tc main_v2) (ix2 (0 : Fin 1) j) = _
  rw [W3_v2]
  exact shapeCast_a_1a_apply _ _ 0 j

/-- The second bias as the gate region reads it, a row, is the launched bias. -/
theorem bias2_read (c : Dev nD) :
    (fun (o : Fin 512) => V3 m ρ c main_v3 (ix2 (0 : Fin 1) o)) = fun o => m ((c : Thread nD τ).loc main_arg4) (ix1 o) := by
  funext o
  show W3 m ρ c (Proc.devRef .tc main_v3) (ix2 (0 : Fin 1) o) = _
  rw [W3_v3]
  exact shapeCast_a_1a_apply _ _ 0 o

/-- THE RESULT: at `(n, o, 0, 0)` the gate at `(n, o)` of the rectified features of the pixel means, all of the launched
    arrays — given what each region leaves in its output array as a function of the contents it is entered with. -/
theorem result_eq
    (hpool : ∀ (V : (c : Dev nD) → (b : Ref sig .tc) → Buf (Elt Ideal) ((c : Thread nD τ).loc b)) (c : Dev nD),
      (dat0 (F := Ideal) V c).arrAt 1 cfg0.N = fun i => poolLanes (fun n ch k => V c main_v0 (ix3 n ch k)) (i 0) (i 1))
    (hgate : ∀ (V : (c : Dev nD) → (b : Ref sig .tc) → Buf (Elt Ideal) ((c : Thread nD τ).loc b)) (c : Dev nD),
      (dat1 (F := Ideal) V c).arrAt 5 cfg1.N
        = fun i => gate (hid (fun n k => V c main_v1 (ix2 n k)) (fun j k => V c main_arg1 (ix2 j k)) (fun j => V c main_v2 (ix2 0 j)))
            (fun o k => V c main_arg3 (ix2 o k)) (fun o => V c main_v3 (ix2 0 o)) (i 0) (i 1))
    (c : Dev nD) :
    (W5 m ρ c (Proc.devRef .tc main_v5) : S32x512x1x1.Idx → EReal)
      = fun i => gate (hid (pool (fun n ch h w => m ((c : Thread nD τ).loc main_arg0) (ix4 n ch h w)))
            (fun j k => m ((c : Thread nD τ).loc main_arg1) (ix2 j k)) (fun j => m ((c : Thread nD τ).loc main_arg2) (ix1 j)))
          (fun o k => m ((c : Thread nD τ).loc main_arg3) (ix2 o k)) (fun o => m ((c : Thread nD τ).loc main_arg4) (ix1 o)) (i 0) (i 1) := by
  funext i
  obtain ⟨n, o, u, v, rfl⟩ : ∃ (n : Fin 32) (o : Fin 512) (u v : Fin 1), i = ix4 n o u v := ⟨i 0, i 1, i 2, i 3, eq_ix4 i⟩
  rw [W5_v5, cast_unit_tail, hgate]
  show gate (hid (fun n k => V3 m ρ c main_v1 (ix2 n k)) (fun j k => W3 m ρ c (Proc.devRef .tc main_arg1) (ix2 j k)) (fun j => V3 m ρ c main_v2 (ix2 (0 : Fin 1) j)))
      (fun o k => W3 m ρ c (Proc.devRef .tc main_arg3) (ix2 o k)) (fun o => V3 m ρ c main_v3 (ix2 (0 : Fin 1) o)) n o = _
  rw [pooled_read m ρ hpool c, bias1_read, bias2_read, W3_arg1, W3_arg3]
  rfl

end Cert.KernelIdeal.Fold

end
-- ==== Proof.PoolPay.lean ====
import proofs.«151572_j43310450213261_2_alg».proof.Proof.Gen.KernelIdeal.Skeleton
import Idealize.ShloMosaic.Lib.Pipeline.Value
import Idealize.ShloMosaic.Lib.ValueIdx
import Idealize.ShloMosaic.PureOps.Ideal.Laws

/-! The pooling body's arithmetic read at one output position: the sum of the 4096 lanes of the loaded block at
    (p, q), times 2^-12. -/

noncomputable section

open scoped BigOperators

namespace Cert.KernelIdeal.PoolPay

open Idealize.ShloMosaic Idealize.ShloMosaic.ValueIdx Cert.KernelIdeal Cert.KernelIdeal.Gen

/-- The f32 word `0x39800000` (sign 0, exponent 115, mantissa 0) denotes 2^(115 - 127) = 2^-12 = 1/4096. -/
theorem ofBits_inv4096 : Ideal.ofBits .f32 0x39800000#32 = ((1 / 4096 : ℝ) : EReal) := by
  simp [Ideal.ofBits, Ideal.ieee, -EReal.coe_mul]; norm_num

/-- The body's result at (p, q): the lane sum of the block's row (p, q), scaled by 1/4096. -/
theorem pay_apply (x0 : Vec Ideal S8x128x4096 .f32) (p : Fin 8) (q : Fin 128) :
    k0_pay1 (F := Ideal) x0 (ix2 p q) = (∑ k : Fin 4096, x0 (ix3 p q k)) * ((1 / 4096 : ℝ) : EReal) := by
  unfold k0_pay1
  rw [mulf_apply, broadcast_apply, shapeCast_self]
  refine congrArg₂ (· * ·) ?_ ofBits_inv4096
  refine (Ideal.multiReduction_add_single (φ := .f32) x0 _ reduces_S8x128x4096_S8x128 _ _ (ix2 p q)).trans ?_
  refine Finset.sum_congr rfl fun k _ => congrArg x0 ?_
  funext a; apply Fin.ext
  match a with
  | ⟨0, _⟩ => rfl
  | ⟨1, _⟩ => rfl
  | ⟨2, _⟩ => rfl

end Cert.KernelIdeal.PoolPay

end
-- ==== Proof.PoolValue.lean ====
import proofs.«151572_j43310450213261_2_alg».proof.Proof.Gen.KernelIdeal.Frame
import proofs.«151572_j43310450213261_2_alg».proof.Proof.Gen.KernelIdeal.Points
import proofs.«151572_j43310450213261_2_alg».proof.Proof.Spec
import proofs.«151572_j43310450213261_2_alg».proof.Proof.PoolPay
import Idealize.ShloMosaic.Lib.Pipeline.Value
import Idealize.ShloMosaic.Lib.ValueIdx
import Idealize.ShloMosaic.PureOps.Ideal.Laws

/-! The pooling region's output array after its sixteen grid points: at (n, ch) the sum of the 4096 lanes of the
    input array's row (n, ch), times 1/4096. Each grid point writes back one [8, 128] block of that function, and
    the sixteen blocks tile the [32, 512] array. -/

noncomputable section

open scoped BigOperators

namespace Cert.KernelIdeal.PoolValue

open Idealize.ShloMosaic Idealize.ShloMosaic.TcCoe Idealize.SL.Sem Idealize.ShloMosaic.ValueIdx Cert.KernelIdeal Cert.KernelIdeal.Gen Cert.PoolGate
open Cert.KernelIdeal.PoolPay
open Idealize.ShloMosaic.Pipeline (Dat)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices of the two windows, decided over the sixteen grid points: the input block and the output
    block share their first two block indices, the input's lane axis is never cut, and both indices are below 4. -/
theorem block_index_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 3 :=
  (by decide +kernel : ∀ t : Fin grid0.N, _)

/-- Every pair of block indices below 4 is some grid point's. -/
theorem block_index_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

/-- One position of one block: if the loaded block's row (j 0, j 1) is the array's row (i 0, i 1), lane by lane,
    the body's result at j is the pooled value at i. -/
theorem pooled_at (a0 : S32x512x4096.Idx → EReal) (x0 : Vec Ideal S8x128x4096 .f32) (j : S8x128.Idx) (i : S32x512.Idx)
    (hx : ∀ k : Fin 4096, x0 (ix3 (j 0) (j 1) k) = a0 (ix3 (i 0) (i 1) k)) :
    k0_pay1 (F := Ideal) x0 j = poolLanes (fun n ch k => a0 (ix3 n ch k)) (i 0) (i 1) := by
  obtain ⟨p, q, rfl⟩ : ∃ (p : Fin 8) (q : Fin 128), j = ix2 p q := ⟨j 0, j 1, eq_ix2 j⟩
  rw [pay_apply]
  unfold poolLanes
  exact congrArg (· * ((1 / 4096 : ℝ) : EReal)) (Finset.sum_congr rfl fun k _ => hx k)

/-- What grid point t writes back is block t of the pooled array. -/
theorem flushed_eq (V : (c : Dev nD) → (b : Ref sig .tc) → Buf (Elt Ideal) ((c : Thread nD τ).loc b)) (c : Dev nD) (t : Fin cfg0.N) :
    (dat0 (F := Ideal) V c).flushed 1 t = ((cfg0.win 1).blk t).view.read (Elt Ideal)
      (fun i => poolLanes (fun n ch k => V c main_v0 (ix3 n ch k)) (i 0) (i 1)) := by
  show (cfg0.win 1).cut (grid0.coords t) ((dat0 V c).after 1 t) = _
  rw [after0_1]
  unfold out0_1
  rw [View.canon_unit_zero zeros2]
  simp only [View.ld_unit_zero (S := S8x128x4096) zeros3]
  obtain ⟨e0, e1, e2, b0, b1⟩ := block_index_facts t
  funext j
  refine pooled_at (V c main_v0) (iblk0 V c 0 t) j (((cfg0.win 1).blk t).view.emb j) ?_
  intro k
  show V c main_v0 (((cfg0.win 0).blk t).view.emb (ix3 (j 0) (j 1) k)) = V c main_v0 (ix3 ((((cfg0.win 1).blk t).view.emb j) 0) ((((cfg0.win 1).blk t).view.emb j) 1) k)
  refine congrArg (V c main_v0) ?_
  funext a; apply Fin.ext
  match a with
  | ⟨0, _⟩ => show win0_0.index t (0 : Fin 3) * 8 + 1 * (j 0).val = win0_1.index t (0 : Fin 2) * 8 + 1 * (j 0).val; omega
  | ⟨1, _⟩ => show win0_0.index t (1 : Fin 3) * 128 + 1 * (j 1).val = win0_1.index t (1 : Fin 2) * 128 + 1 * (j 1).val; omega
  | ⟨2, _⟩ => show win0_0.index t (2 : Fin 3) * 4096 + 1 * k.val = k.val; omega

/-- An index of the output array is in point t's block iff each coordinate is in the block's range on its axis. -/
theorem mem_block (t : Fin cfg0.N) (i : S32x512.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- The sixteen [8, 128] blocks tile [32, 512]: the index (r, s) is in the block of the point whose block indices are
    (r / 8, s / 128), and every point writes its block back. -/
theorem covered (i : S32x512.Idx) :
    ∃ t : Fin cfg0.N, (cfg0.win 1).flush t = true ∧ i ∈ ((cfg0.win 1).blk t).view.set := by
  have hi0 : (i 0).val < 32 := (i 0).isLt
  have hi1 : (i 1).val < 512 := (i 1).isLt
  obtain ⟨t, ht⟩ := block_index_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_block]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The pooling region's output array after its sixteen points: at (n, ch) the lane sum of the input array's row
    (n, ch), times 1/4096, whatever contents the region is entered with. -/
theorem pool_final (V : (c : Dev nD) → (b : Ref sig .tc) → Buf (Elt Ideal) ((c : Thread nD τ).loc b)) (c : Dev nD) :
    (dat0 (F := Ideal) V c).arrAt 1 cfg0.N
      = fun i => poolLanes (fun n ch k => V c main_v0 (ix3 n ch k)) (i 0) (i 1) :=
  (dat0 V c).arrAt_eq_of_cover 1 _ (fun t _ => flushed_eq V c t) covered

end Cert.KernelIdeal.PoolValue

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.MlpPay.lean ====
import proofs.«151572_j43310450213261_2_alg».proof.Proof.Gen.KernelIdeal.Skeleton
import proofs.«151572_j43310450213261_2_alg».proof.Proof.Spec
import proofs.«151572_j43310450213261_2_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

/-!
  The gate body's arithmetic read entry by entry.

  The body computes, from the pooled means `p` (a `[32, 512]` array), the first-layer weights `w1` (`[32, 512]`), the
  first bias as a row `b1` (`[1, 32]`), the second-layer weights `w2` (`[512, 32]`) and the second bias as a row `b2`
  (`[1, 512]`):
    • the hidden features `h(n, j) = max (∑ k, p(n, k) * w1(j, k) + b1(0, j)) 0`, a product with the transpose of `w1`,
      the bias row repeated over the rows, and the maximum with zero;
    • the gate `g(n, o) = logistic (∑ k, h(n, k) * w2(o, k) + b2(0, o))`, a product with the transpose of `w2`, the
      bias row repeated over the rows, and the logistic function.
  On the extended reals the roundings to the shorter float format between the steps are identities, and the casts of a
  shape to itself change nothing.
-/

noncomputable section

open scoped BigOperators

namespace Cert.KernelIdeal.MlpPay

open Idealize.ShloMosaic Idealize.ShloMosaic.TcCoe Idealize.SL.Sem Idealize.ShloMosaic.ValueIdx Cert.KernelIdeal Cert.KernelIdeal.Gen Cert.PoolGate

/-- The hidden features as the body computes them: the product of `p` with the transpose of `w1` from the zero
    accumulator, plus the bias row repeated over the rows, and the maximum of that with zero. -/
def hiddenVec (x0 x1 : FVec Ideal S32x512 .f32) (x2 : FVec Ideal S1x32 .f32) : FVec Ideal S32x32 .f32 :=
  maximumf
    (addf
      (matmul dot_S32x512_S512x32_S32x32_1_0_0_1_n_n none
        (truncf .bf16 (shapeCast S32x512 x0 shapeCasts_S32x512_S32x512) bitsLt_bf16_f32)
        (transpose S512x32 [1, 0] (truncf .bf16 x1 bitsLt_bf16_f32) transposes_S32x512_p1_0_S512x32)
        (constant (F := Ideal) S32x32 .f32 0x00000000#32))
      (broadcastTo S32x32 (shapeCast S1x32 x2 shapeCasts_S1x32_S1x32) broadcasts_S1x32_S32x32))
    (broadcast S32x32 (Scalar.ofBits (F := Ideal) .f32 0x00000000#32))

/-- The hidden features at `(n, j)`: `max (∑ k, p(n, k) * w1(j, k) + b1(0, j)) 0`. -/
theorem hiddenVec_apply (x0 x1 : FVec Ideal S32x512 .f32) (x2 : FVec Ideal S1x32 .f32) (n j : Fin 32) :
    hiddenVec x0 x1 x2 (ix2 n j)
      = hid (fun n k => x0 (ix2 n k)) (fun j k => x1 (ix2 j k)) (fun j => x2 (ix2 0 j)) n j := by
  unfold hiddenVec hid
  rw [shapeCast_self, shapeCast_self, maximumf_apply, addf_apply, broadcast_apply]
  refine congrArg₂ max (congrArg₂ (· + ·) ?_ ?_) Ideal.ofBits_zero_f32
  · exact matmul_transpose_ix2_apply dot_S32x512_S512x32_S32x32_1_0_0_1_n_n rfl rfl rfl rfl rfl rfl none
      (truncf .bf16 x0 bitsLt_bf16_f32) (truncf .bf16 x1 bitsLt_bf16_f32) transposes_S32x512_p1_0_S512x32 n j
  · exact broadcastTo_1b_ab_apply x2 broadcasts_S1x32_S32x32 n j

/-- The body's result at `(n, o)`: the gate of the hidden features, `logistic (∑ k, h(n, k) * w2(o, k) + b2(0, o))`. -/
theorem pay_apply (x0 x1 : FVec Ideal S32x512 .f32) (x2 : FVec Ideal S1x32 .f32) (x3 : FVec Ideal S512x32 .f32)
    (x4 : FVec Ideal S1x512 .f32) (n : Fin 32) (o : Fin 512) :
    k1_pay1 (F := Ideal) x0 x1 x2 x3 x4 (ix2 n o)
      = gate (hid (fun n k => x0 (ix2 n k)) (fun j k => x1 (ix2 j k)) (fun j => x2 (ix2 0 j)))
          (fun o k => x3 (ix2 o k)) (fun o => x4 (ix2 0 o)) n o := by
  unfold k1_pay1
  show Ideal.logistic
      (matmul dot_S32x32_S32x512_S32x512_1_0_0_1_n_n none (truncf .bf16 (hiddenVec x0 x1 x2) bitsLt_bf16_f32)
          (transpose S32x512 [1, 0] (truncf .bf16 x3 bitsLt_bf16_f32) transposes_S512x32_p1_0_S32x512)
          (constant (F := Ideal) S32x512 .f32 0x00000000#32) (ix2 n o)
        + broadcastTo S32x512 (shapeCast S1x512 x4 shapeCasts_S1x512_S1x512) broadcasts_S1x512_S32x512 (ix2 n o)) = _
  unfold gate
  refine congrArg Ideal.logistic (congrArg₂ (· + ·) ?_ ?_)
  · refine (matmul_transpose_ix2_apply dot_S32x32_S32x512_S32x512_1_0_0_1_n_n rfl rfl rfl rfl rfl rfl none
      (truncf .bf16 (hiddenVec x0 x1 x2) bitsLt_bf16_f32) (truncf .bf16 x3 bitsLt_bf16_f32)
      transposes_S512x32_p1_0_S32x512 n o).trans ?_
    exact Finset.sum_congr rfl fun k _ => congrArg (· * x3 (ix2 o k)) (hiddenVec_apply x0 x1 x2 n k)
  · rw [shapeCast_self]
    exact broadcastTo_1b_ab_apply x4 broadcasts_S1x512_S32x512 n o

end Cert.KernelIdeal.MlpPay

end
-- ==== Proof.MlpValue.lean ====
import proofs.«151572_j43310450213261_2_alg».proof.Proof.Gen.KernelIdeal.Frame
import proofs.«151572_j43310450213261_2_alg».proof.Proof.Spec
import proofs.«151572_j43310450213261_2_alg».proof.Proof.LibMatmulRead
import proofs.«151572_j43310450213261_2_alg».proof.Proof.MlpPay
import Idealize.ShloMosaic.Lib.Pipeline.Value
import Idealize.ShloMosaic.Lib.ValueIdx
import Idealize.ShloMosaic.PureOps.Ideal.Laws

/-!
  The gate region's output array after the run, as one function of the arrays the region is entered with.

  The region's grid has one point, and every window's block is its whole array: each block index is `(0, 0)`, so a
  block's element at `y` is the array's element at `0 * size + 1 * y = y`. Hence the body's five loaded blocks are the
  five arrays, what the point writes back is the gate of those arrays (the body's arithmetic read entry by entry), and
  the one block written back holds every index of the output array.
-/

noncomputable section

open scoped BigOperators

namespace Cert.KernelIdeal.MlpValue

open Idealize.ShloMosaic Idealize.ShloMosaic.TcCoe Idealize.SL.Sem Idealize.ShloMosaic.ValueIdx Cert.KernelIdeal Cert.KernelIdeal.Gen Cert.PoolGate
open Cert.KernelIdeal.MlpPay

/-- The body's loads and its store start at offset zero on both axes. -/
theorem zeroOffsets : (![0, 0] : Fin 2 → Nat) = fun _ => 0 := funext fun a => by fin_cases a <;> rfl

/-- The gate of five arrays, entry by entry: the second layer and the logistic function of the hidden features of
    the first. -/
abbrev gateOf (p w1 : S32x512.Idx → Elt Ideal .f32) (b1 : S1x32.Idx → Elt Ideal .f32) (w2 : S512x32.Idx → Elt Ideal .f32)
    (b2 : S1x512.Idx → Elt Ideal .f32) : S32x512.Idx → Elt Ideal .f32 :=
  fun i => gate (hid (fun n k => p (ix2 n k)) (fun j k => w1 (ix2 j k)) (fun j => b1 (ix2 0 j)))
    (fun o k => w2 (ix2 o k)) (fun o => b2 (ix2 0 o)) (i 0) (i 1)

/-- The body's result is the gate of its five loaded arrays. -/
theorem pay_eq (x0 x1 : Vec Ideal S32x512 .f32) (x2 : Vec Ideal S1x32 .f32) (x3 : Vec Ideal S512x32 .f32)
    (x4 : Vec Ideal S1x512 .f32) : k1_pay1 (F := Ideal) x0 x1 x2 x3 x4 = gateOf x0 x1 x2 x3 x4 := by
  funext i
  obtain ⟨n, o, rfl⟩ : ∃ (n : Fin 32) (o : Fin 512), i = ix2 n o := ⟨i 0, i 1, eq_ix2 i⟩
  exact pay_apply x0 x1 x2 x3 x4 n o

/-- The one grid point's block of every window is block `(0, 0)`. -/
theorem blockIndices : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

section Blocks

variable (V : (c : Dev nD) → (b : Ref sig .tc) → Buf (Elt Ideal) ((c : Thread nD τ).loc b))

/-- The pooled means' block is their whole array: the block's offset is zero on both axes (and so for the other four
    input windows below). -/
theorem block0_eq (c : Dev nD) (t : Fin cfg1.N) : (iblk1 V c 0 t : Vec Ideal S32x512 .f32) = V c main_v1 := by
  obtain ⟨e0, e1, -⟩ := blockIndices t
  funext y
  show V c main_v1 (((cfg1.win 0).blk t).view.emb y) = V c main_v1 y
  refine congrArg (V c main_v1) (funext fun a => Fin.ext ?_)
  match a with
  | ⟨0, _⟩ => show win1_0.index t (0 : Fin 2) * 32 + 1 * (y 0).val = (y 0).val; omega
  | ⟨1, _⟩ => show win1_0.index t (1 : Fin 2) * 512 + 1 * (y 1).val = (y 1).val; omega

/-- The first-layer weights' block is their whole array. -/
theorem block1_eq (c : Dev nD) (t : Fin cfg1.N) : (iblk1 V c 1 t : Vec Ideal S32x512 .f32) = V c main_arg1 := by
  obtain ⟨-, -, e0, e1, -⟩ := blockIndices t
  funext y
  show V c main_arg1 (((cfg1.win 1).blk t).view.emb y) = V c main_arg1 y
  refine congrArg (V c main_arg1) (funext fun a => Fin.ext ?_)
  match a with
  | ⟨0, _⟩ => show win1_1.index t (0 : Fin 2) * 32 + 1 * (y 0).val = (y 0).val; omega
  | ⟨1, _⟩ => show win1_1.index t (1 : Fin 2) * 512 + 1 * (y 1).val = (y 1).val; omega

/-- The first bias row's block is its whole array. -/
theorem block2_eq (c : Dev nD) (t : Fin cfg1.N) : (iblk1 V c 2 t : Vec Ideal S1x32 .f32) = V c main_v2 := by
  obtain ⟨-, -, -, -, e0, e1, -⟩ := blockIndices t
  funext y
  show V c main_v2 (((cfg1.win 2).blk t).view.emb y) = V c main_v2 y
  refine congrArg (V c main_v2) (funext fun a => Fin.ext ?_)
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- The second-layer weights' block is their whole array. -/
theorem block3_eq (c : Dev nD) (t : Fin cfg1.N) : (iblk1 V c 3 t : Vec Ideal S512x32 .f32) = V c main_arg3 := by
  obtain ⟨-, -, -, -, -, -, e0, e1, -⟩ := blockIndices t
  funext y
  show V c main_arg3 (((cfg1.win 3).blk t).view.emb y) = V c main_arg3 y
  refine congrArg (V c main_arg3) (funext fun a => Fin.ext ?_)
  match a with
  | ⟨0, _⟩ => show win1_3.index t (0 : Fin 2) * 512 + 1 * (y 0).val = (y 0).val; omega
  | ⟨1, _⟩ => show win1_3.index t (1 : Fin 2) * 32 + 1 * (y 1).val = (y 1).val; omega

/-- The second bias row's block is its whole array. -/
theorem block4_eq (c : Dev nD) (t : Fin cfg1.N) : (iblk1 V c 4 t : Vec Ideal S1x512 .f32) = V c main_v3 := by
  obtain ⟨-, -, -, -, -, -, -, -, e0, e1, -⟩ := blockIndices t
  funext y
  show V c main_v3 (((cfg1.win 4).blk t).view.emb y) = V c main_v3 y
  refine congrArg (V c main_v3) (funext fun a => Fin.ext ?_)
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- What the one point writes back is the output window's block of the gate of the arrays as the region finds them. -/
theorem flushed_eq (c : Dev nD) (t : Fin cfg1.N) :
    (dat1 (F := Ideal) V c).flushed 5 t = ((cfg1.win 5).blk t).view.read (Elt Ideal)
      (gateOf (V c main_v1) (V c main_arg1) (V c main_v2) (V c main_arg3) (V c main_v3)) := by
  show (cfg1.win 5).cut (grid1.coords t) ((dat1 V c).after 5 t) = _
  rw [after1_5]
  unfold out1_5
  rw [View.canon_unit_zero zeroOffsets]
  simp only [View.ld_unit_zero (S := S32x512) zeroOffsets, View.ld_unit_zero (S := S1x32) zeroOffsets,
    View.ld_unit_zero (S := S512x32) zeroOffsets, View.ld_unit_zero (S := S1x512) zeroOffsets]
  rw [block0_eq V c t, block1_eq V c t, block2_eq V c t, block3_eq V c t, block4_eq V c t, pay_eq]
  obtain ⟨-, -, -, -, -, -, -, -, -, -, e0, e1⟩ := blockIndices t
  funext j
  show gateOf (V c main_v1) (V c main_arg1) (V c main_v2) (V c main_arg3) (V c main_v3) j
    = gateOf (V c main_v1) (V c main_arg1) (V c main_v2) (V c main_arg3) (V c main_v3) (((cfg1.win 5).blk t).view.emb j)
  refine congrArg (gateOf (V c main_v1) (V c main_arg1) (V c main_v2) (V c main_arg3) (V c main_v3)) (funext fun a => Fin.ext ?_)
  match a with
  | ⟨0, _⟩ => show (j 0).val = win1_5.index t (0 : Fin 2) * 32 + 1 * (j 0).val; omega
  | ⟨1, _⟩ => show (j 1).val = win1_5.index t (1 : Fin 2) * 512 + 1 * (j 1).val; omega

/-- The one point's block of the output window holds every index of the array. -/
theorem covered (i : S32x512.Idx) :
    ∃ t : Fin cfg1.N, (cfg1.win 5).flush t = true ∧ i ∈ ((cfg1.win 5).blk t).view.set := by
  have hN : 0 < cfg1.N := by decide +kernel
  refine ⟨⟨0, hN⟩, flush1_5 _, ?_⟩
  obtain ⟨-, -, -, -, -, -, -, -, -, -, e0, e1⟩ := blockIndices ⟨0, hN⟩
  show i ∈ ((View.whole main_v4).slice (win1_5.rect ⟨0, hN⟩)).set
  rw [View.set_slice_whole, Rect.mem_set_unit]
  intro a
  have h0 : (i 0).val < 32 := (i 0).isLt
  have h1 : (i 1).val < 512 := (i 1).isLt
  match a with
  | ⟨0, _⟩ => show win1_5.index ⟨0, hN⟩ (0 : Fin 2) * 32 ≤ (i 0).val ∧ (i 0).val < win1_5.index ⟨0, hN⟩ (0 : Fin 2) * 32 + 32; omega
  | ⟨1, _⟩ => show win1_5.index ⟨0, hN⟩ (1 : Fin 2) * 512 ≤ (i 1).val ∧ (i 1).val < win1_5.index ⟨0, hN⟩ (1 : Fin 2) * 512 + 512; omega

end Blocks

/-- The output array after the run is the gate of the arrays the region is entered with: the one point's write-back
    is that function's block, and the block holds every index. -/
theorem mlp_final (V : (c : Dev nD) → (b : Ref sig .tc) → Buf (Elt Ideal) ((c : Thread nD τ).loc b)) (c : Dev nD) :
    (dat1 (F := Ideal) V c).arrAt 5 cfg1.N
      = fun i => gate (hid (fun n k => V c main_v1 (ix2 n k)) (fun j k => V c main_arg1 (ix2 j k)) (fun j => V c main_v2 (ix2 0 j)))
          (fun o k => V c main_arg3 (ix2 o k)) (fun o => V c main_v3 (ix2 0 o)) (i 0) (i 1) :=
  (dat1 (F := Ideal) V c).arrAt_eq_of_cover 5 (gateOf (V c main_v1) (V c main_arg1) (V c main_v2) (V c main_arg3) (V c main_v3))
    (fun t _ => flushed_eq V c t) covered

end Cert.KernelIdeal.MlpValue

end
-- ==== Proof.LibReduceLast2.lean ====
/-
  A host sum over the last two axes of a rank-4 array, read entry by entry.

  `stablehlo.reduce` with `add` across dimensions [2, 3] of an `[n0, n1, n2, n3]` array — what `jnp.sum` or `jnp.mean` over
  the two trailing axes lowers to — has, at the entry `(a, b)` of its `[n0, n1]` result, the initial value plus the
  double sum over the two reduced coordinates of the operand at `(a, b, c, d)`. On the extended reals the sum is a
  finite sum in a commutative monoid, so it may be taken in any order; no entry need be finite.
-/
import Idealize.ShloMosaic.PureOps.Ideal
import Idealize.ShloMosaic.Lib.ValueIdx

noncomputable section

open scoped BigOperators

namespace Idealize.ShloMosaic.ValueIdx

open Idealize.ShloMosaic

/-- The host's sum over the LAST TWO axes of a rank-4 array, read at the index (a, b) of its rank-2 result: the initial
    value plus the double sum over the two reduced coordinates. The indices that drop to (a, b) are exactly the
    (a, b, c, d), and the sum over them is re-indexed by the pair (c, d). -/
theorem hostReduceAdd_last2 {n0 n1 n2 n3 : Nat}
    (h' : (⟨4, ![n0, n1, n2, n3]⟩ : Shape).ReducesTo [2, 3] ⟨2, ![n0, n1]⟩)
    (x : (⟨4, ![n0, n1, n2, n3]⟩ : Shape).Idx → EReal) (init : EReal) (a : Fin n0) (b : Fin n1) :
    Ideal.hostReduceAdd h' x init (ix2 a b) = init + ∑ c : Fin n2, ∑ d : Fin n3, x (ix4 a b c d) := by
  unfold Ideal.hostReduceAdd
  have key : ∑ i ∈ Finset.univ.filter (fun i => h'.drop i = ix2 a b), x i
      = ∑ p : Fin n2 × Fin n3, x (ix4 a b p.1 p.2) := by
    have hl : ∀ i ∈ Finset.univ.filter (fun i => h'.drop i = ix2 a b), ix4 a b (i 2) (i 3) = i := by
      intro i hi
      rw [Finset.mem_filter] at hi
      have h0 := congrFun hi.2 0
      have h1 := congrFun hi.2 1
      funext e
      match e with
      | ⟨0, _⟩ => exact h0.symm
      | ⟨1, _⟩ => exact h1.symm
      | ⟨2, _⟩ => rfl
      | ⟨3, _⟩ => rfl
    refine Finset.sum_nbij' (fun i => (i 2, i 3)) (fun p => ix4 a b p.1 p.2) ?_ ?_ hl ?_ ?_
    · intro i _; exact Finset.mem_univ _
    · intro p _
      rw [Finset.mem_filter]; refine ⟨Finset.mem_univ _, ?_⟩
      funext e; match e with | ⟨0, _⟩ => rfl | ⟨1, _⟩ => rfl
    · intro p _; rfl
    · intro i hi; exact congrArg x (hl i hi).symm
  rw [key, Fintype.sum_prod_type]

end Idealize.ShloMosaic.ValueIdx

end
-- ==== Proof.RefValue.lean ====
import proofs.«151572_j43310450213261_2_alg».proof.Proof.Gen.ReferenceIdeal.Read
import proofs.«151572_j43310450213261_2_alg».proof.Proof.Spec
import proofs.«151572_j43310450213261_2_alg».proof.Proof.LibReduceLast2
import Idealize.ShloMosaic.Lib.Pipeline.Value
import Idealize.ShloMosaic.Lib.ValueIdx
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx Cert.ReferenceIdeal Cert.ReferenceIdeal.Gen Cert.PoolGate

/-! ## The three float words -/

/-- The word of `4096.0` denotes the real `4096`. -/
theorem ofBits_4096 : Ideal.ofBits .f32 0x45800000#32 = ((4096 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-! ## The composed index functions, at indices given by their coordinates -/

theorem lidx3_eq (n j : Fin 32) (k : Fin 512) : Read.lidx_main_v3 (ix2 n j) k = ix2 n k :=
  funext fun a => Fin.ext (by match a with | ⟨0, _⟩ => rfl | ⟨1, _⟩ => rfl)
theorem ridx3_eq (n j : Fin 32) (k : Fin 512) : Read.ridx_main_v3 (ix2 n j) k = ix2 j k :=
  funext fun a => Fin.ext (by match a with | ⟨0, _⟩ => rfl | ⟨1, _⟩ => rfl)
theorem bias1_idx (n j : Fin 32) : Read.idx_main_v4 (Read.idx_main_v5 (ix2 n j)) = ix1 j :=
  funext fun a => Fin.ext (by match a with | ⟨0, _⟩ => rfl)
theorem lidx8_eq (n : Fin 32) (o : Fin 512) (k : Fin 32) : Read.lidx_main_v8 (ix2 n o) k = ix2 n k :=
  funext fun a => Fin.ext (by match a with | ⟨0, _⟩ => rfl | ⟨1, _⟩ => rfl)
theorem ridx8_eq (n : Fin 32) (o : Fin 512) (k : Fin 32) : Read.ridx_main_v8 (ix2 n o) k = ix2 o k :=
  funext fun a => Fin.ext (by match a with | ⟨0, _⟩ => rfl | ⟨1, _⟩ => rfl)
theorem bias2_idx (n : Fin 32) (o : Fin 512) : Read.idx_main_v9 (Read.idx_main_v10 (ix2 n o)) = ix1 o :=
  funext fun a => Fin.ext (by match a with | ⟨0, _⟩ => rfl)
theorem out_idx (n : Fin 32) (o : Fin 512) (u v : Fin 1) : Read.idx_main_v18 (ix4 n o u v) = ix2 n o :=
  funext fun a => Fin.ext (by match a with | ⟨0, _⟩ => rfl | ⟨1, _⟩ => rfl)

section
variable (x0 : (⟨S32x512x64x64, .f32⟩ : BufTy).Contents (Elt Ideal)) (x1 : (⟨S32x512, .f32⟩ : BufTy).Contents (Elt Ideal))
  (x2 : (⟨S32, .f32⟩ : BufTy).Contents (Elt Ideal)) (x3 : (⟨S512x32, .f32⟩ : BufTy).Contents (Elt Ideal))
  (x4 : (⟨S512, .f32⟩ : BufTy).Contents (Elt Ideal))

/-! ## The pooled mean -/

/-- The sum over the 64 × 64 pixels, from the zero word. -/
theorem sum_read (n : Fin 32) (ch : Fin 512) :
    Read.val_main_v0 (F := Ideal) x0 (ix2 n ch) = ∑ h : Fin 64, ∑ w : Fin 64, x0 (ix4 n ch h w) := by
  unfold Read.val_main_v0
  show Ideal.hostReduceAdd reducesTo_S32x512x64x64_S32x512_d2_3 x0 (Read.val_main_cst (F := Ideal) (Shape.Idx.first h_S_)) (ix2 n ch) = _
  rw [hostReduceAdd_last2, Read.val_main_cst_apply]
  show Ideal.ofBits .f32 0x00000000#32 + _ = _
  rw [Ideal.ofBits_zero_f32, zero_add]

/-- The quotient of that sum by `4096` is the product with `1/4096`, on every extended real. -/
theorem mean_read (n : Fin 32) (ch : Fin 512) :
    Read.val_main_v2 (F := Ideal) x0 (ix2 n ch) = pool (fun n ch h w => x0 (ix4 n ch h w)) n ch := by
  rw [Read.val_main_v2_apply, Read.val_main_v1_apply, Read.val_main_cst_0_apply, sum_read]
  simp only [Ideal.hostDivf_def, Ideal.ofBits_def]
  rw [ofBits_4096, Ideal.div_coe (by norm_num)]
  rfl

/-! ## The hidden features -/

theorem hid_read (n j : Fin 32) :
    Read.val_main_v7 (F := Ideal) x0 x1 x2 (ix2 n j)
      = hid (pool (fun n ch h w => x0 (ix4 n ch h w))) (fun j k => x1 (ix2 j k)) (fun j => x2 (ix1 j)) n j := by
  rw [Read.val_main_v7_apply, Read.val_main_v6_apply, Read.val_main_v3_apply, Read.val_main_v5_apply, Read.val_main_v4_apply,
    Read.val_main_call0_v0_apply, Read.val_main_call0_cst_apply]
  simp only [lidx3_eq, ridx3_eq, bias1_idx, mean_read, Ideal.maximumf_def, Ideal.addf_def, Ideal.ofBits_def,
    Ideal.ofBits_zero_f32]
  rfl

/-! ## The gate -/

theorem gate_read (n : Fin 32) (o : Fin 512) :
    Read.val_main_v17 (F := Ideal) x0 x1 x2 x3 x4 (ix2 n o)
      = gate (hid (pool (fun n ch h w => x0 (ix4 n ch h w))) (fun j k => x1 (ix2 j k)) (fun j => x2 (ix1 j)))
          (fun o k => x3 (ix2 o k)) (fun o => x4 (ix1 o)) n o := by
  rw [Read.val_main_v17_apply, Read.val_main_v16_apply, Read.val_main_cst_2_apply, Read.val_main_v15_apply,
    Read.val_main_v14_apply, Read.val_main_cst_1_apply, Read.val_main_v13_apply, Read.val_main_v12_apply,
    Read.val_main_v11_apply, Read.val_main_v8_apply, Read.val_main_v10_apply, Read.val_main_v9_apply]
  simp only [lidx8_eq, ridx8_eq, bias2_idx, hid_read, Ideal.hostDivf_def, Ideal.addf_def, Ideal.ofBits_def,
    Ideal.hostUnary_exp_def, Ideal.hostNegf_def, Ideal.negf_def, ofBits_one]
  rfl

end

theorem ref_result (x0 : (⟨S32x512x64x64, .f32⟩ : BufTy).Contents (Elt Ideal)) (x1 : (⟨S32x512, .f32⟩ : BufTy).Contents (Elt Ideal))
    (x2 : (⟨S32, .f32⟩ : BufTy).Contents (Elt Ideal)) (x3 : (⟨S512x32, .f32⟩ : BufTy).Contents (Elt Ideal))
    (x4 : (⟨S512, .f32⟩ : BufTy).Contents (Elt Ideal)) :
    Cert.ReferenceIdeal.Read.val_main_v18 (F := Ideal) x0 x1 x2 x3 x4
      = fun i => gate (hid (pool (fun n ch h w => x0 (ix4 n ch h w))) (fun j k => x1 (ix2 j k)) (fun j => x2 (ix1 j)))
          (fun o k => x3 (ix2 o k)) (fun o => x4 (ix1 o)) (i 0) (i 1) := by
  funext i
  obtain ⟨n, o, u, v, rfl⟩ : ∃ (n : Fin 32) (o : Fin 512) (u v : Fin 1), i = ix4 n o u v := ⟨i 0, i 1, i 2, i 3, eq_ix4 i⟩
  rw [Read.val_main_v18_apply, out_idx, gate_read]

end Cert.ReferenceIdeal.RefValue

end
-- ==== Proof.lean ====
/-
  Global average pooling followed by a two-layer gate: the Pallas kernel against its jnp reference, on the extended reals.

  THE KERNEL makes two pallas_calls. The first views the [32, 512, 64, 64] input with each channel's 64 × 64 pixels as
  one row of 4096 lanes and, over a 4 × 4 grid of [8, 128] blocks, writes for every image and channel the sum of the
  lanes times 2⁻¹² — the float word it multiplies by is exactly 1/4096. The second, at one grid point on whole arrays,
  computes `max (p · w1ᵀ + b1) 0`, then the logistic function of `h · w2ᵀ + b2`, the biases re-laid as rows and the
  weights transposed inside the body; its roundings to a shorter format are the identity on the extended reals. A last
  re-laying gives the result its two trailing unit axes.
  THE REFERENCE sums the input over its two pixel axes, divides by 4096, takes the two inner products against the
  weights' rows directly, rectifies, and spells the logistic function out as `1 / (1 + exp (-x))`.

  WHY THEY AGREE, entry by entry, on every extended real (no finiteness is used):
    • lanes and pixels correspond one to one under `k ↦ (k / 64, k % 64)`, and addition is commutative and associative,
      so the lane sum is the double sum over the pixels;
    • a quotient by the real 4096 is the product with the real 1/4096;
    • a product against a transposed weight and a contraction of second axes are the same sum of products;
    • the logistic function is by definition `1 / (1 + exp (-x))`, corners included.
  Both runs end with the result `gate (hid (pool x) w1 b1) w2 b2` at `(n, o, 0, 0)` (`Cert.PoolGate`): the kernel's by
  what each region leaves in its output array (`PoolValue`, `MlpValue`) folded through the program's five segments
  (`KernelRun`, `Fold`), the reference's by reading its operations one at a time (`RefValue`).

  The three frames are the generated frame runs (the reference's is its generated run with the result dropped); the
  idealization rewrote no operation, so there is nothing to preserve.
-/
import proofs.«151572_j43310450213261_2_alg».proof.Defs
import proofs.«151572_j43310450213261_2_alg».proof.Proof.Gen.Kernel
import proofs.«151572_j43310450213261_2_alg».proof.Proof.Gen.Kernel.Skeleton
import proofs.«151572_j43310450213261_2_alg».proof.Proof.Gen.Kernel.Launch
import proofs.«151572_j43310450213261_2_alg».proof.Proof.Gen.Kernel.Points
import proofs.«151572_j43310450213261_2_alg».proof.Proof.Gen.Kernel.Frame
import proofs.«151572_j43310450213261_2_alg».proof.Proof.Gen.KernelIdeal
import proofs.«151572_j43310450213261_2_alg».proof.Proof.Gen.KernelIdeal.Skeleton
import proofs.«151572_j43310450213261_2_alg».proof.Proof.Gen.KernelIdeal.Launch
import proofs.«151572_j43310450213261_2_alg».proof.Proof.Gen.KernelIdeal.Points
import proofs.«151572_j43310450213261_2_alg».proof.Proof.Gen.KernelIdeal.Frame
import proofs.«151572_j43310450213261_2_alg».proof.Proof.Gen.ReferenceIdeal
import proofs.«151572_j43310450213261_2_alg».proof.Proof.Gen.ReferenceIdeal.Run
import proofs.«151572_j43310450213261_2_alg».proof.Proof.Gen.ReferenceIdeal.Read
import proofs.«151572_j43310450213261_2_alg».proof.Proof.Gen.Pre_finite_inputs
import proofs.«151572_j43310450213261_2_alg».proof.Proof.KernelRun
import proofs.«151572_j43310450213261_2_alg».proof.Proof.Fold
import proofs.«151572_j43310450213261_2_alg».proof.Proof.PoolValue
import proofs.«151572_j43310450213261_2_alg».proof.Proof.MlpValue
import proofs.«151572_j43310450213261_2_alg».proof.Proof.RefValue
import Idealize.ShloMosaic.Adequacy
import Idealize.ShloMosaic.Init

noncomputable section

namespace Cert.Proof

open Idealize.ShloMosaic Idealize.SL.Sem Idealize.ShloMosaic.ValueIdx Cert.PoolGate

/-- The kernel's run with its result named: the gate of the rectified features of the pixel means of the launched
    arrays, and the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v5)
          = (fun i => gate (hid (pool (fun n ch h w => m ((c.tc : Thread Cert.KernelIdeal.nD Cert.KernelIdeal.τ).loc Cert.KernelIdeal.main_arg0) (ix4 n ch h w)))
                (fun j k => m ((c.tc : Thread Cert.KernelIdeal.nD Cert.KernelIdeal.τ).loc Cert.KernelIdeal.main_arg1) (ix2 j k))
                (fun j => m ((c.tc : Thread Cert.KernelIdeal.nD Cert.KernelIdeal.τ).loc Cert.KernelIdeal.main_arg2) (ix1 j)))
              (fun o k => m ((c.tc : Thread Cert.KernelIdeal.nD Cert.KernelIdeal.τ).loc Cert.KernelIdeal.main_arg3) (ix2 o k))
              (fun o => m ((c.tc : Thread Cert.KernelIdeal.nD Cert.KernelIdeal.τ).loc Cert.KernelIdeal.main_arg4) (ix1 o)) (i 0) (i 1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun _ h c => ⟨(h c).1.trans (Cert.KernelIdeal.Fold.result_eq m ρ Cert.KernelIdeal.PoolValue.pool_final Cert.KernelIdeal.MlpValue.mlp_final c), (h c).2⟩)
    (Cert.KernelIdeal.Run.run_result (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result at one function of the arguments: the
    kernel's by `kernel_run`, the reference's by its generated run read one operation at a time. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_result,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
